-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S128x64 : Shape := ⟨2, ![128, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x64 .f32) (main_arg1 : IVec S2x1600000 32) (main_arg2 : FVec F S128x64 .f32) (main_arg3 : FVec F S64 .f32) (main_arg4 : FVec F S128x64 .f32) (main_arg5 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S100000x64 : Shape := ⟨2, ![100000, 64]⟩
abbrev S2x1600000 : Shape := ⟨2, ![2, 1600000]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S1600000x128 : Shape := ⟨2, ![1600000, 128]⟩
abbrev S1x64 : Shape := ⟨2, ![1, 64]⟩
abbrev S20000x128 : Shape := ⟨2, ![20000, 128]⟩
abbrev S20000x64 : Shape := ⟨2, ![20000, 64]⟩
abbrev S100000 : Shape := ⟨1, ![100000]⟩
abbrev S100000x1 : Shape := ⟨2, ![100000, 1]⟩
abbrev S100000x128 : Shape := ⟨2, ![100000, 128]⟩

abbrev nBuf : Space → Nat
  | .hbm => 51
  | .vmem => 12
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S128x64, .f32⟩
  | .hbm, ⟨5, _⟩ => ⟨S64, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S_, .i32⟩
  | .hbm, ⟨11, _⟩ => ⟨S1600000, .i32⟩
  | .hbm, ⟨12, _⟩ => ⟨S1600000, .i1⟩
  | .hbm, ⟨13, _⟩ => ⟨S_, .i32⟩
  | .hbm, ⟨14, _⟩ => ⟨S1600000, .i32⟩
  | .hbm, ⟨15, _⟩ => ⟨S1600000, .i32⟩
  | .hbm, ⟨16, _⟩ => ⟨S1600000, .i32⟩
  | .hbm, ⟨17, _⟩ => ⟨S1600000x1, .i32⟩
  | .hbm, ⟨18, _⟩ => ⟨S1600000x64, .f32⟩
  | .hbm, ⟨19, _⟩ => ⟨S_, .i32⟩
  | .hbm, ⟨20, _⟩ => ⟨S1600000, .i32⟩
  | .hbm, ⟨21, _⟩ => ⟨S1600000, .i1⟩
  | .hbm, ⟨22, _⟩ => ⟨S_, .i32⟩
  | .hbm, ⟨23, _⟩ => ⟨S1600000, .i32⟩
  | .hbm, ⟨24, _⟩ => ⟨S1600000, .i32⟩
  | .hbm, ⟨25, _⟩ => ⟨S1600000, .i32⟩
  | .hbm, ⟨26, _⟩ => ⟨S1600000x1, .i32⟩
  | .hbm, ⟨27, _⟩ => ⟨S1600000x64, .f32⟩
  | .hbm, ⟨28, _⟩ => ⟨S1600000x128, .f32⟩
  | .hbm, ⟨29, _⟩ => ⟨S1x64, .f32⟩
  | .hbm, ⟨30, _⟩ => ⟨S1600000x64, .f32⟩
  | .hbm, ⟨31, _⟩ => ⟨S_, .f32⟩
  | .hbm, ⟨32, _⟩ => ⟨S100000x64, .f32⟩
  | .hbm, ⟨33, _⟩ => ⟨S1600000x1, .i32⟩
  | .hbm, ⟨34, _⟩ => ⟨S100000x64, .f32⟩
  | .hbm, ⟨35, _⟩ => ⟨S_, .f32⟩
  | .hbm, ⟨36, _⟩ => ⟨S1600000, .f32⟩
  | .hbm, ⟨37, _⟩ => ⟨S_, .f32⟩
  | .hbm, ⟨38, _⟩ => ⟨S100000, .f32⟩
  | .hbm, ⟨39, _⟩ => ⟨S1600000x1, .i32⟩
  | .hbm, ⟨40, _⟩ => ⟨S100000, .f32⟩
  | .hbm, ⟨41, _⟩ => ⟨S_, .f32⟩
  | .hbm, ⟨42, _⟩ => ⟨S_, .f32⟩
  | .hbm, ⟨43, _⟩ => ⟨S100000, .f32⟩
  | .hbm, ⟨44, _⟩ => ⟨S100000, .f32⟩
  | .hbm, ⟨45, _⟩ => ⟨S100000x1, .f32⟩
  | .hbm, ⟨46, _⟩ => ⟨S100000x64, .f32⟩
  | .hbm, ⟨47, _⟩ => ⟨S100000x64, .f32⟩
  | .hbm, ⟨48, _⟩ => ⟨S100000x128, .f32⟩
  | .hbm, ⟨49, _⟩ => ⟨S1x64, .f32⟩
  | .hbm, ⟨50, _⟩ => ⟨S100000x64, .f32⟩
  | .local _ .vmem, ⟨0, _⟩ => ⟨S20000x128, .f32⟩
  | .local _ .vmem, ⟨1, _⟩ => ⟨S20000x128, .f32⟩
  | .local _ .vmem, ⟨2, _⟩ => ⟨S128x64, .f32⟩
  | .local _ .vmem, ⟨3, _⟩ => ⟨S1x64, .f32⟩
  | .local _ .vmem, ⟨4, _⟩ => ⟨S20000x64, .f32⟩
  | .local _ .vmem, ⟨5, _⟩ => ⟨S20000x64, .f32⟩
  | .local _ .vmem, ⟨6, _⟩ => ⟨S20000x128, .f32⟩
  | .local _ .vmem, ⟨7, _⟩ => ⟨S20000x128, .f32⟩
  | .local _ .vmem, ⟨8, _⟩ => ⟨S128x64, .f32⟩
  | .local _ .vmem, ⟨9, _⟩ => ⟨S1x64, .f32⟩
  | .local _ .vmem, ⟨10, _⟩ => ⟨S20000x64, .f32⟩
  | .local _ .vmem, ⟨11, _⟩ => ⟨S20000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c_1 : Ref sig .tc := ⟨.hbm, 19, rfl⟩
abbrev main_v11 : Ref sig .tc := ⟨.hbm, 20, rfl⟩
abbrev main_v12 : Ref sig .tc := ⟨.hbm, 21, rfl⟩
abbrev main_c_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_cst_4 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_5 : Ref sig .tc := ⟨.hbm, 41, rfl⟩
abbrev main_call0_v0 : Ref sig .tc := ⟨.hbm, 42, rfl⟩
abbrev main_call0_v1 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![80], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S20000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S20000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S20000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S20000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  concatenates_S1600000x64_S1600000x64_S1600000x128_d1 : Shape.Concatenates [S1600000x64, S1600000x64] S1600000x128 1
  shapeCasts_S64_S1x64 : S64.ShapeCasts S1x64
  inb_S20000x128_S20000x128_0_0 : ∀ a, (![0, 0] : Fin 2 → Nat) a + S20000x128.size a ≤ S20000x128.size a
  h_S20000x128 : 0 < S20000x128.numel
  shapeCasts_S20000x128_S20000x128 : S20000x128.ShapeCasts S20000x128
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S20000x64 : S1x64.Broadcasts S20000x64
  inb_S20000x64_S20000x64_0_0 : ∀ a, (![0, 0] : Fin 2 → Nat) a + S20000x64.size a ≤ S20000x64.size a
  h_S20000x64 : 0 < S20000x64.numel
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  concatenates_S100000x64_S100000x64_S100000x128_d1 : Shape.Concatenates [S100000x64, S100000x64] S100000x128 1
  gather_S100000x64_S1600000x1_S1600000x64_1_0_n_n_0_1_164_wf : GatherDims.WF S100000x64 S1600000x1 S1600000x64 [1] [0] [] [0] [] 1 ![1, 64]
  dot_S20000x128_S128x64_S20000x64_1_0_0_1_n_n_wf : DotDims.WF S20000x128 S128x64 S20000x64 [1] [0] [0] [1] [] []
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S20000x128.size a ≤ S1600000x128.size a
  hwx0_0 : ∀ i : grid0.Coords, EltTy.bits .f32 = 32 ∨ (Rect.block (s := S1600000x128) S20000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S20000x64.size a ≤ S1600000x64.size a
  hwx0_3 : ∀ i : grid0.Coords, EltTy.bits .f32 = 32 ∨ (Rect.block (s := S1600000x64) S20000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S20000x128.size a ≤ S100000x128.size a
  hwx1_0 : ∀ i : grid1.Coords, EltTy.bits .f32 = 32 ∨ (Rect.block (s := S100000x128) S20000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x64.size a ≤ S128x64.size a
  hwx1_1 : ∀ i : grid1.Coords, EltTy.bits .f32 = 32 ∨ (Rect.block (s := S128x64) S128x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S20000x64.size a ≤ S100000x64.size a
  hwx1_3 : ∀ i : grid1.Coords, EltTy.bits .f32 = 32 ∨ (Rect.block (s := S100000x64) S20000x64.size (cc1_transform_3 i) (hinb1_3 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def dot_S20000x128_S128x64_S20000x64_1_0_0_1_n_n : DotDims S20000x128 S128x64 S20000x64 where
  lhsContracting := [1]
  rhsContracting := [0]
  lhsNonContracting := [0]
  rhsNonContracting := [1]
  lhsBatch := []
  rhsBatch := []
  wf := dot_S20000x128_S128x64_S20000x64_1_0_0_1_n_n_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf

abbrev win0_0 : Pipeline.Window sig grid0 :=
  Pipeline.Window.ofSpec (Memref.whole main_v18) S20000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v19) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v20) S20000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v32) S20000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v33) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v34) S20000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S1600000x128 : Shape := ⟨2, ![1600000, 128]⟩
abbrev S1x64 : Shape := ⟨2, ![1, 64]⟩
abbrev S100000 : Shape := ⟨1, ![100000]⟩
abbrev S100000x1 : Shape := ⟨2, ![100000, 1]⟩
abbrev S100000x128 : Shape := ⟨2, ![100000, 128]⟩

abbrev nBuf : Space → Nat
  | .hbm => 61
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S128x64, .f32⟩
  | .hbm, ⟨5, _⟩ => ⟨S64, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S_, .i32⟩
  | .hbm, ⟨11, _⟩ => ⟨S1600000, .i32⟩
  | .hbm, ⟨12, _⟩ => ⟨S1600000, .i1⟩
  | .hbm, ⟨13, _⟩ => ⟨S_, .i32⟩
  | .hbm, ⟨14, _⟩ => ⟨S1600000, .i32⟩
  | .hbm, ⟨15, _⟩ => ⟨S1600000, .i32⟩
  | .hbm, ⟨16, _⟩ => ⟨S1600000, .i32⟩
  | .hbm, ⟨17, _⟩ => ⟨S1600000x1, .i32⟩
  | .hbm, ⟨18, _⟩ => ⟨S1600000x64, .f32⟩
  | .hbm, ⟨19, _⟩ => ⟨S_, .i32⟩
  | .hbm, ⟨20, _⟩ => ⟨S1600000, .i32⟩
  | .hbm, ⟨21, _⟩ => ⟨S1600000, .i1⟩
  | .hbm, ⟨22, _⟩ => ⟨S_, .i32⟩
  | .hbm, ⟨23, _⟩ => ⟨S1600000, .i32⟩
  | .hbm, ⟨24, _⟩ => ⟨S1600000, .i32⟩
  | .hbm, ⟨25, _⟩ => ⟨S1600000, .i32⟩
  | .hbm, ⟨26, _⟩ => ⟨S1600000x1, .i32⟩
  | .hbm, ⟨27, _⟩ => ⟨S1600000x64, .f32⟩
  | .hbm, ⟨28, _⟩ => ⟨S1600000x128, .f32⟩
  | .hbm, ⟨29, _⟩ => ⟨S1600000x64, .f32⟩
  | .hbm, ⟨30, _⟩ => ⟨S1x64, .f32⟩
  | .hbm, ⟨31, _⟩ => ⟨S1600000x64, .f32⟩
  | .hbm, ⟨32, _⟩ => ⟨S1600000x64, .f32⟩
  | .hbm, ⟨33, _⟩ => ⟨S_, .f32⟩
  | .hbm, ⟨34, _⟩ => ⟨S1600000x64, .f32⟩
  | .hbm, ⟨35, _⟩ => ⟨S1600000x64, .f32⟩
  | .hbm, ⟨36, _⟩ => ⟨S_, .f32⟩
  | .hbm, ⟨37, _⟩ => ⟨S100000x64, .f32⟩
  | .hbm, ⟨38, _⟩ => ⟨S1600000x1, .i32⟩
  | .hbm, ⟨39, _⟩ => ⟨S100000x64, .f32⟩
  | .hbm, ⟨40, _⟩ => ⟨S_, .f32⟩
  | .hbm, ⟨41, _⟩ => ⟨S1600000, .f32⟩
  | .hbm, ⟨42, _⟩ => ⟨S_, .f32⟩
  | .hbm, ⟨43, _⟩ => ⟨S100000, .f32⟩
  | .hbm, ⟨44, _⟩ => ⟨S1600000x1, .i32⟩
  | .hbm, ⟨45, _⟩ => ⟨S100000, .f32⟩
  | .hbm, ⟨46, _⟩ => ⟨S_, .f32⟩
  | .hbm, ⟨47, _⟩ => ⟨S_, .f32⟩
  | .hbm, ⟨48, _⟩ => ⟨S100000, .f32⟩
  | .hbm, ⟨49, _⟩ => ⟨S100000, .f32⟩
  | .hbm, ⟨50, _⟩ => ⟨S100000x1, .f32⟩
  | .hbm, ⟨51, _⟩ => ⟨S100000x64, .f32⟩
  | .hbm, ⟨52, _⟩ => ⟨S100000x64, .f32⟩
  | .hbm, ⟨53, _⟩ => ⟨S100000x128, .f32⟩
  | .hbm, ⟨54, _⟩ => ⟨S100000x64, .f32⟩
  | .hbm, ⟨55, _⟩ => ⟨S1x64, .f32⟩
  | .hbm, ⟨56, _⟩ => ⟨S100000x64, .f32⟩
  | .hbm, ⟨57, _⟩ => ⟨S100000x64, .f32⟩
  | .hbm, ⟨58, _⟩ => ⟨S_, .f32⟩
  | .hbm, ⟨59, _⟩ => ⟨S100000x64, .f32⟩
  | .hbm, ⟨60, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c_1 : Ref sig .tc := ⟨.hbm, 19, rfl⟩
abbrev main_v11 : Ref sig .tc := ⟨.hbm, 20, rfl⟩
abbrev main_v12 : Ref sig .tc := ⟨.hbm, 21, rfl⟩
abbrev main_c_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_call0_cst : Ref sig .tc := ⟨.hbm, 33, rfl⟩
abbrev main_call0_v0 : Ref sig .tc := ⟨.hbm, 34, rfl⟩
abbrev main_v23 : Ref sig .tc := ⟨.hbm, 35, rfl⟩
abbrev main_cst : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_3 : Ref sig .tc := ⟨.hbm, 40, rfl⟩
abbrev main_v27 : Ref sig .tc := ⟨.hbm, 41, rfl⟩
abbrev main_cst_4 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_5 : Ref sig .tc := ⟨.hbm, 46, rfl⟩
abbrev main_call1_v0 : Ref sig .tc := ⟨.hbm, 47, rfl⟩
abbrev main_call1_v1 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_call2_cst : Ref sig .tc := ⟨.hbm, 58, rfl⟩
abbrev main_call2_v0 : Ref sig .tc := ⟨.hbm, 59, rfl⟩
abbrev main_v40 : Ref sig .tc := ⟨.hbm, 60, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  concatenates_S1600000x64_S1600000x64_S1600000x128_d1 : Shape.Concatenates [S1600000x64, S1600000x64] S1600000x128 1
  bcast_S64_S1x64_1 : S64.BroadcastsInDim S1x64 (![1] : Fin 1 → Fin S1x64.rank)
  bcast_S1x64_S1600000x64_0_1 : S1x64.BroadcastsInDim S1600000x64 (![0, 1] : Fin 2 → Fin S1600000x64.rank)
  bcast_S_S1600000x64 : S_.BroadcastsInDim S1600000x64 (![] : Fin 0 → Fin S1600000x64.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  concatenates_S100000x64_S100000x64_S100000x128_d1 : Shape.Concatenates [S100000x64, S100000x64] S100000x128 1
  bcast_S1x64_S100000x64_0_1 : S1x64.BroadcastsInDim S100000x64 (![0, 1] : Fin 2 → Fin S100000x64.rank)
  gather_S100000x64_S1600000x1_S1600000x64_1_0_n_n_0_1_164_wf : GatherDims.WF S100000x64 S1600000x1 S1600000x64 [1] [0] [] [0] [] 1 ![1, 64]
  dot_S1600000x128_S128x64_S1600000x64_1_0_0_1_n_n_wf : DotDims.WF S1600000x128 S128x64 S1600000x64 [1] [0] [0] [1] [] []
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  dot_S100000x128_S128x64_S100000x64_1_0_0_1_n_n_wf : DotDims.WF S100000x128 S128x64 S100000x64 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def dot_S1600000x128_S128x64_S1600000x64_1_0_0_1_n_n : DotDims S1600000x128 S128x64 S1600000x64 where
  lhsContracting := [1]
  rhsContracting := [0]
  lhsNonContracting := [0]
  rhsNonContracting := [1]
  lhsBatch := []
  rhsBatch := []
  wf := dot_S1600000x128_S128x64_S1600000x64_1_0_0_1_n_n_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.KernelRun.lean ====
/-
  The idealized kernel program's run, with its result named.

  @main is six segments: the host operations that build the edge features, the first dense-layer region, three
  stretches of host operations (the scatter-adds, the clamp of the counts, the division and the node features), and
  the second dense-layer region. The buffer contents at each boundary are a fold from the launch memory; after the
  last region every unscoped buffer holds the last boundary's contents. Read at the program's result buffer this says:
  every weakly fair execution terminates, nothing faulting, with the result at the last boundary's contents of that
  buffer — the second region's output array as its write-backs leave it — and the arguments as launched.
-/
import proofs.«144825_j7971459301457_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting; the result buffer ends at the last boundary's
    contents and every argument as launched: the segments' chain, the last thread state read against the final state,
    the result's buffer among the unscoped ones. -/
theorem run : θ_run defs (onTc (τ := τ) (main (F := F))) ⟨m, fun _ => 0, ρ⟩ (fun r => ∀ c : Dev nD,
      r.2.mem ((c.tc : Thread nD τ).loc main_v34) = W6 m ρ c (Proc.devRef .tc main_v34)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v34 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c)⟩)

end Cert.KernelIdeal.RunValue

end
-- ==== Proof.LibPlainMatmul.lean ====
/-
  A plain matrix product into a zero accumulator, read at an entry, at the exact (extended-real) values.

  For an m×k matrix A and a k×n matrix B the product's (a, b) entry is the sum over the contracted coordinate c of
  A(a, c) · B(c, b): the contraction's index set has one axis, of extent k, and is re-indexed by its one coordinate.
-/
import Idealize.ShloMosaic.PureOps.Ideal.Laws
import Idealize.ShloMosaic.Lib.ValueIdx

noncomputable section

open scoped BigOperators

namespace Idealize.ShloMosaic.ValueIdx

open Idealize.ShloMosaic

/-- The (a, b) entry of the plain product of an m×k by a k×n matrix, accumulated into the zero matrix, is
    `∑ c, A (a, c) * B (c, b)` on the extended reals. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant ⟨2, ![m, n]⟩ .f32 0x00000000#32) (ix2 a b)
      = ∑ c : Fin k, A (ix2 a c) * B (ix2 c b) := by
  show FloatOps.matmul (DotDims.plain m k n) prec A B (constant ⟨2, ![m, n]⟩ .f32 0x00000000#32) (ix2 a b) = _
  rw [Ideal.matmul_constant_zero_apply, ← Equiv.sum_comp (contrEquiv1 (DotDims.plain m k n) k rfl rfl).symm]
  refine Finset.sum_congr rfl fun c _ => ?_
  have hc := contrEquiv1_symm_val (DotDims.plain m k n) k rfl rfl c
  have el : (DotDims.plain m k n).lhsIdx (ix2 a b) ((contrEquiv1 (DotDims.plain m k n) k rfl rfl).symm c) = ix2 a c := by
    funext ax; apply Fin.ext
    match ax with
    | ⟨0, _⟩ => simp [DotDims.lhsIdx, DotDims.plain]; rfl
    | ⟨1, _⟩ => simp [DotDims.lhsIdx, DotDims.plain]; exact hc
  have er : (DotDims.plain m k n).rhsIdx (ix2 a b) ((contrEquiv1 (DotDims.plain m k n) k rfl rfl).symm c) = ix2 c b := by
    funext ax; apply Fin.ext
    match ax with
    | ⟨0, _⟩ => simp [DotDims.rhsIdx, DotDims.plain]; exact hc
    | ⟨1, _⟩ => simp [DotDims.rhsIdx, DotDims.plain]; rfl
  rw [el, er]

end Idealize.ShloMosaic.ValueIdx

end
-- ==== Proof.LibPlainDot.lean ====
/-
  A plain matrix product computed as a host dot_general, read at an entry, at the exact (extended-real) values.

  For an m×k matrix A and a k×n matrix B the product's (a, b) entry is the sum over the contracted coordinate c of
  A(a, c) · B(c, b), whatever the schedule key: the contraction's index set has one axis, of extent k, and is
  re-indexed by its one coordinate. The twin, for the host's product, of the same reading of a matmul into a zero
  accumulator.
-/
import Idealize.ShloMosaic.PureOps.Ideal.Laws
import Idealize.ShloMosaic.Lib.ValueIdx

noncomputable section

open scoped BigOperators

namespace Idealize.ShloMosaic.ValueIdx

open Idealize.ShloMosaic

/-- The (a, b) entry of the host's plain product of an m×k by a k×n matrix is `∑ c, A (a, c) * B (c, b)` on the
    extended reals. -/
theorem dotGeneral_plain_apply {m k n : Nat} {φ₁ φ₂ : FTy} (prec : Option ContractPrecision) (sched : HostSchedule)
    (A : FVec Ideal ⟨2, ![m, k]⟩ φ₁) (B : FVec Ideal ⟨2, ![k, n]⟩ φ₂) (a : Fin m) (b : Fin n) :
    FloatOps.dotGeneral (DotDims.plain m k n) prec sched A B (ix2 a b) = ∑ c : Fin k, A (ix2 a c) * B (ix2 c b) := by
  rw [Ideal.dotGeneral_apply, ← Equiv.sum_comp (contrEquiv1 (DotDims.plain m k n) k rfl rfl).symm]
  refine Finset.sum_congr rfl fun c _ => ?_
  have hc := contrEquiv1_symm_val (DotDims.plain m k n) k rfl rfl c
  have el : (DotDims.plain m k n).lhsIdx (ix2 a b) ((contrEquiv1 (DotDims.plain m k n) k rfl rfl).symm c) = ix2 a c := by
    funext ax; apply Fin.ext
    match ax with
    | ⟨0, _⟩ => simp [DotDims.lhsIdx, DotDims.plain]; rfl
    | ⟨1, _⟩ => simp [DotDims.lhsIdx, DotDims.plain]; exact hc
  have er : (DotDims.plain m k n).rhsIdx (ix2 a b) ((contrEquiv1 (DotDims.plain m k n) k rfl rfl).symm c) = ix2 c b := by
    funext ax; apply Fin.ext
    match ax with
    | ⟨0, _⟩ => simp [DotDims.rhsIdx, DotDims.plain]; exact hc
    | ⟨1, _⟩ => simp [DotDims.rhsIdx, DotDims.plain]; rfl
  rw [el, er]

/-- The same for the schedule key of one device's data, as a host program applies it. -/
theorem hostDotGeneral_plain_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    Host.dotGeneral (DotDims.plain m k n) prec A B (ix2 a b) = ∑ c : Fin k, A (ix2 a c) * B (ix2 c b) :=
  dotGeneral_plain_apply prec .single A B a b

end Idealize.ShloMosaic.ValueIdx

end
-- ==== Proof.LibDenseLayer.lean ====
/-
  A dense layer, written two ways, on the extended reals.

  * `matmul_zero_eq_dotGeneral`: a plain m×k by k×n matrix product accumulated into the zero matrix is the host's
    plain product of the same matrices: both read, at (a, b), the sum over the contracted coordinate c of
    A(a, c) · B(c, b).
  * `biasRow_eq`: a length-b vector cast to a [1, b] row and repeated down a rows is the same [a, b] array as the
    host's two broadcasts (first to [1, b] along axis 1, then to [a, b]): both read, at (p, q), the vector at q.
  * `dense_apply`: the host's plain product plus the bias row, read at an entry.
  * `splat_eq`: a scalar repeated over a shape is the host's broadcast of the rank-zero constant of the same bits.
-/
import Idealize.ShloMosaic.PureOps.Ideal.Laws
import Idealize.ShloMosaic.Lib.ValueIdx
import Idealize.ShloMosaic.Lib.ValueLayout
import Idealize.ShloMosaic.Lib.Pipeline.Value
import proofs.«144825_j7971459301457_2_alg».proof.Proof.LibPlainMatmul
import proofs.«144825_j7971459301457_2_alg».proof.Proof.LibPlainDot

noncomputable section

namespace Cert.LibDenseLayer

open Idealize.ShloMosaic Idealize.ShloMosaic.ValueIdx

/-- Accumulated into zero, the plain product of an m×k by a k×n matrix is the host's plain product. -/
theorem matmul_zero_eq_dotGeneral {m k n : Nat} {φ₁ φ₂ : FTy} (prec : Option ContractPrecision)
    (A : FVec Ideal ⟨2, ![m, k]⟩ φ₁) (B : FVec Ideal ⟨2, ![k, n]⟩ φ₂) :
    matmul (DotDims.plain m k n) prec A B (constant ⟨2, ![m, n]⟩ .f32 0x00000000#32)
      = Host.dotGeneral (DotDims.plain m k n) prec A B := by
  funext i
  obtain ⟨a, b, rfl⟩ : ∃ (a : Fin m) (b : Fin n), i = ix2 a b := ⟨i 0, i 1, eq_ix2 i⟩
  rw [matmul_plain_zero_apply, hostDotGeneral_plain_apply]

/-- A dense layer at an entry: the host's plain product plus the bias row reads, at (a, b), the sum over the contracted
    coordinate c of A(a, c) · B(c, b), plus the bias at b. -/
theorem dense_apply {m k n : Nat} {φ : FTy} (prec : Option ContractPrecision)
    (A : FVec Ideal ⟨2, ![m, k]⟩ φ) (B : FVec Ideal ⟨2, ![k, n]⟩ φ) (v : FVec Ideal ⟨1, ![n]⟩ φ)
    (g1 : (⟨1, ![n]⟩ : Shape).BroadcastsInDim ⟨2, ![1, n]⟩ ![1])
    (g2 : (⟨2, ![1, n]⟩ : Shape).BroadcastsInDim ⟨2, ![m, n]⟩ ![0, 1]) (a : Fin m) (b : Fin n) :
    addf (Host.dotGeneral (DotDims.plain m k n) prec A B)
        (broadcastInDim ⟨2, ![m, n]⟩ ![0, 1] g2 (broadcastInDim ⟨2, ![1, n]⟩ ![1] g1 v)) (ix2 a b)
      = (∑ c : Fin k, A (ix2 a c) * B (ix2 c b)) + v (ix1 b) := by
  show Host.dotGeneral (DotDims.plain m k n) prec A B (ix2 a b)
      + broadcastInDim ⟨2, ![m, n]⟩ ![0, 1] g2 (broadcastInDim ⟨2, ![1, n]⟩ ![1] g1 v) (ix2 a b) = _
  rw [hostDotGeneral_plain_apply]
  have hb : b.val = if n = 1 then 0 else b.val := by
    split
    · have := b.isLt; omega
    · rfl
  have hk2 : ∀ ax : Fin 2, ((ix2 (0 : Fin 1) b : (⟨2, ![1, n]⟩ : Shape).Idx) ax).val
      = if (⟨2, ![1, n]⟩ : Shape).size ax = 1 then 0 else ((ix2 a b : (⟨2, ![m, n]⟩ : Shape).Idx) ((![0, 1] : Fin 2 → Fin 2) ax)).val := fun ax =>
    match ax with
    | ⟨0, _⟩ => rfl
    | ⟨1, _⟩ => hb
  have hk1 : ∀ ax : Fin 1, ((ix1 b : (⟨1, ![n]⟩ : Shape).Idx) ax).val
      = if (⟨1, ![n]⟩ : Shape).size ax = 1 then 0 else ((ix2 (0 : Fin 1) b : (⟨2, ![1, n]⟩ : Shape).Idx) ((![1] : Fin 1 → Fin 2) ax)).val := fun ax =>
    match ax with
    | ⟨0, _⟩ => hb
  rw [broadcastInDim_apply _ g2 _ (ix2 a b) (ix2 (0 : Fin 1) b) hk2, broadcastInDim_apply _ g1 v (ix2 (0 : Fin 1) b) (ix1 b) hk1]

variable {α : Type}

/-- A vector as a row repeated down the rows, the vector way and the host way. -/
theorem biasRow_eq {a b : ℕ} (v : (⟨1, ![b]⟩ : Shape).Idx → α)
    (h1 : (⟨1, ![b]⟩ : Shape).ShapeCasts ⟨2, ![1, b]⟩) (h2 : (⟨2, ![1, b]⟩ : Shape).Broadcasts ⟨2, ![a, b]⟩)
    (g1 : (⟨1, ![b]⟩ : Shape).BroadcastsInDim ⟨2, ![1, b]⟩ ![1])
    (g2 : (⟨2, ![1, b]⟩ : Shape).BroadcastsInDim ⟨2, ![a, b]⟩ ![0, 1]) :
    broadcastTo ⟨2, ![a, b]⟩ (shapeCast ⟨2, ![1, b]⟩ v h1) h2
      = broadcastInDim ⟨2, ![a, b]⟩ ![0, 1] g2 (broadcastInDim ⟨2, ![1, b]⟩ ![1] g1 v) := by
  funext i
  obtain ⟨p, q, rfl⟩ : ∃ (p : Fin a) (q : Fin b), i = ix2 p q := ⟨i 0, i 1, eq_ix2 i⟩
  rw [broadcastTo_1b_ab_apply, shapeCast_a_1a_apply]
  have hq : q.val = if b = 1 then 0 else q.val := by
    split
    · have := q.isLt; omega
    · rfl
  have hk2 : ∀ ax : Fin 2, ((ix2 (0 : Fin 1) q : (⟨2, ![1, b]⟩ : Shape).Idx) ax).val
      = if (⟨2, ![1, b]⟩ : Shape).size ax = 1 then 0 else ((ix2 p q : (⟨2, ![a, b]⟩ : Shape).Idx) ((![0, 1] : Fin 2 → Fin 2) ax)).val := fun ax =>
    match ax with
    | ⟨0, _⟩ => rfl
    | ⟨1, _⟩ => hq
  have hk1 : ∀ ax : Fin 1, ((ix1 q : (⟨1, ![b]⟩ : Shape).Idx) ax).val
      = if (⟨1, ![b]⟩ : Shape).size ax = 1 then 0 else ((ix2 (0 : Fin 1) q : (⟨2, ![1, b]⟩ : Shape).Idx) ((![1] : Fin 1 → Fin 2) ax)).val := fun ax =>
    match ax with
    | ⟨0, _⟩ => hq
  rw [broadcastInDim_apply _ g2 _ (ix2 p q) (ix2 (0 : Fin 1) q) hk2, broadcastInDim_apply _ g1 v (ix2 (0 : Fin 1) q) (ix1 q) hk1]

/-- A scalar repeated over a shape is the host's broadcast of the rank-zero constant of the same bits. -/
theorem splat_eq {F : FTy → Type} [FloatOps F] {s : Shape} {φ : FTy} (bits : BitVec φ.bits)
    (g : (⟨0, ![]⟩ : Shape).BroadcastsInDim s ![]) :
    (broadcast s (Scalar.ofBits φ bits : F φ) : FVec F s φ)
      = broadcastInDim s ![] g (constant (F := F) ⟨0, ![]⟩ φ bits) := by
  funext i
  rfl

end Cert.LibDenseLayer

end
-- ==== Proof.LibDenseRows.lean ====
/-
  A dense layer on a block of rows, on the extended reals.

  For an m×k matrix X, a k×n matrix W and a one-row matrix r the function `denseRows X W r` reads, at (a, b),
  Σ_c X(a, c) · W(c, b) + r(0, b). It is computed three ways:
  * a block's product into the zero accumulator plus the row repeated down the block (`block_dense`);
  * the host's product plus its two broadcasts of a length-n vector v, r being that vector laid out as a row
    (`host_dense`);
  * with X first clamped below at zero, which is done entry by entry and so commutes with reading a block
    (`clamp0`, `host_clamp0`, `block_clamp0`).
  A narrowing or a widening change of float format is the identity on the extended reals, so neither shows.
-/
import Idealize.ShloMosaic.PureOps.Ideal.Laws
import Idealize.ShloMosaic.Lib.ValueIdx
import Idealize.ShloMosaic.Lib.ValueLayout
import Idealize.ShloMosaic.Lib.Pipeline.Value
import proofs.«144825_j7971459301457_2_alg».proof.Proof.LibDenseLayer

noncomputable section

open scoped BigOperators

namespace Cert.DenseRows

open Idealize.ShloMosaic Idealize.ShloMosaic.ValueIdx

/-- Row a of X against column b of W, plus the row matrix r at column b. -/
def denseRows {m k n : ℕ} (X : (⟨2, ![m, k]⟩ : Shape).Idx → EReal) (W : (⟨2, ![k, n]⟩ : Shape).Idx → EReal)
    (r : (⟨2, ![1, n]⟩ : Shape).Idx → EReal) : (⟨2, ![m, n]⟩ : Shape).Idx → EReal :=
  fun i => (∑ c : Fin k, X (ix2 (i 0) c) * W (ix2 c (i 1))) + r (ix2 (0 : Fin 1) (i 1))

theorem denseRows_apply {m k n : ℕ} (X : (⟨2, ![m, k]⟩ : Shape).Idx → EReal) (W : (⟨2, ![k, n]⟩ : Shape).Idx → EReal)
    (r : (⟨2, ![1, n]⟩ : Shape).Idx → EReal) (a : Fin m) (b : Fin n) :
    denseRows X W r (ix2 a b) = (∑ c : Fin k, X (ix2 a c) * W (ix2 c b)) + r (ix2 (0 : Fin 1) b) := rfl

/-- A block's plain product into the zero accumulator, plus the one-row matrix repeated down the block, then narrowed:
    the dense layer of the block's rows. -/
theorem block_dense {m k n : ℕ} {φ₁ φ₂ : FTy} (x0 : FVec Ideal ⟨2, ![m, k]⟩ φ₁) (x1 : FVec Ideal ⟨2, ![k, n]⟩ φ₂)
    (x2 : FVec Ideal ⟨2, ![1, n]⟩ .f32)
    (h1 : (⟨2, ![1, n]⟩ : Shape).ShapeCasts ⟨2, ![1, n]⟩) (h2 : (⟨2, ![1, n]⟩ : Shape).Broadcasts ⟨2, ![m, n]⟩)
    (ht : FTy.bf16.bits < FTy.f32.bits) :
    (truncf .bf16 (addf (matmul (DotDims.plain m k n) none x0 x1 (constant ⟨2, ![m, n]⟩ .f32 0x00000000#32))
        (broadcastTo ⟨2, ![m, n]⟩ (shapeCast ⟨2, ![1, n]⟩ x2 h1) h2)) ht : FVec Ideal ⟨2, ![m, n]⟩ .bf16)
      = denseRows x0 x1 x2 := by
  funext i
  obtain ⟨a, b, rfl⟩ : ∃ (a : Fin m) (b : Fin n), i = ix2 a b := ⟨i 0, i 1, eq_ix2 i⟩
  show matmul (DotDims.plain m k n) none x0 x1 (constant ⟨2, ![m, n]⟩ .f32 0x00000000#32) (ix2 a b)
      + broadcastTo ⟨2, ![m, n]⟩ (shapeCast ⟨2, ![1, n]⟩ x2 h1) h2 (ix2 a b) = _
  rw [matmul_plain_zero_apply, broadcastTo_1b_ab_apply, shapeCast_self, denseRows_apply]

/-- The host's plain product plus its two broadcasts of a length-n vector: the dense layer with that vector as the row. -/
theorem host_dense {m k n : ℕ} (A : FVec Ideal ⟨2, ![m, k]⟩ .f32) (B : FVec Ideal ⟨2, ![k, n]⟩ .f32)
    (v : FVec Ideal ⟨1, ![n]⟩ .f32)
    (g1 : (⟨1, ![n]⟩ : Shape).BroadcastsInDim ⟨2, ![1, n]⟩ ![1])
    (g2 : (⟨2, ![1, n]⟩ : Shape).BroadcastsInDim ⟨2, ![m, n]⟩ ![0, 1])
    (h : (⟨1, ![n]⟩ : Shape).ShapeCasts ⟨2, ![1, n]⟩) :
    addf (Host.dotGeneral (DotDims.plain m k n) none A B)
        (broadcastInDim ⟨2, ![m, n]⟩ ![0, 1] g2 (broadcastInDim ⟨2, ![1, n]⟩ ![1] g1 v))
      = denseRows A B (shapeCast ⟨2, ![1, n]⟩ v h) := by
  funext i
  obtain ⟨a, b, rfl⟩ : ∃ (a : Fin m) (b : Fin n), i = ix2 a b := ⟨i 0, i 1, eq_ix2 i⟩
  rw [Cert.LibDenseLayer.dense_apply, denseRows_apply, shapeCast_a_1a_apply]

/-- An array clamped below at zero, entry by entry (zero kept as the all-zero f32 word). -/
def clamp0 {s : Shape} (X : s.Idx → EReal) : s.Idx → EReal :=
  fun i => max (X i) (Ideal.ofBits .f32 0x00000000#32)

/-- The host's maximum with the broadcast zero constant is that clamp. -/
theorem host_clamp0 {s : Shape} (X : FVec Ideal s .f32) (g : (⟨0, ![]⟩ : Shape).BroadcastsInDim s ![]) :
    maximumf X (broadcastInDim s ![] g (constant (F := Ideal) ⟨0, ![]⟩ .f32 0x00000000#32)) = clamp0 X := by
  funext i
  rfl

/-- A block's maximum with the splat of zero, after a cast to its own shape and before narrowing, is that clamp. -/
theorem block_clamp0 {s : Shape} (x : FVec Ideal s .f32) (h : s.ShapeCasts s) (ht : FTy.bf16.bits < FTy.f32.bits) :
    (truncf .bf16 (maximumf (shapeCast s x h) (broadcast s (Scalar.ofBits .f32 0x00000000#32 : Ideal .f32))) ht
        : FVec Ideal s .bf16) = clamp0 x := by
  rw [shapeCast_self]
  funext i
  rfl

/-- Clamping commutes with reading a sub-array: it is done entry by entry. -/
theorem clamp0_comp {s t : Shape} (X : s.Idx → EReal) (e : t.Idx → s.Idx) : (fun y => clamp0 X (e y)) = clamp0 (fun y => X (e y)) := rfl

end Cert.DenseRows

end
-- ==== Proof.LibReluRows.lean ====
/-
  A dense layer clamped below at zero, row by row, on the extended reals.

  For an m×k matrix X, a k×n matrix W and a one-row matrix r the function `reluRows X W r` reads, at (a, b),
  max(Σ_c X(a, c) · W(c, b) + r(0, b), 0): a dense layer (`denseRows`) followed by the clamp at zero (`clamp0`).
  It is computed two ways:
  * on a block of rows held in vector registers: the product into the zero accumulator, plus the one-row matrix
    repeated down the block, then the maximum with the splat of zero (`block_reluRows`);
  * by host operations on the whole array: the plain product, plus the two broadcasts of a length-n vector v (r
    being v laid out as a row), then the maximum with the broadcast zero constant (`host_reluRows`).
  Row a of the result depends on row a of X only, so the result of a block of rows of X is the same block of rows
  of the result of X (`reluRows_rows`).
-/
import Idealize.ShloMosaic.PureOps.Ideal.Laws
import Idealize.ShloMosaic.Lib.ValueIdx
import Idealize.ShloMosaic.Lib.ValueLayout
import Idealize.ShloMosaic.Lib.Pipeline.Value
import proofs.«144825_j7971459301457_2_alg».proof.Proof.LibDenseRows

noncomputable section

open scoped BigOperators

namespace Cert.ReluRows

open Idealize.ShloMosaic Idealize.ShloMosaic.ValueIdx Cert.DenseRows

/-- Row a of X against column b of W, plus the row matrix r at column b, clamped below at zero. -/
def reluRows {m k n : ℕ} (X : (⟨2, ![m, k]⟩ : Shape).Idx → EReal) (W : (⟨2, ![k, n]⟩ : Shape).Idx → EReal)
    (r : (⟨2, ![1, n]⟩ : Shape).Idx → EReal) : (⟨2, ![m, n]⟩ : Shape).Idx → EReal :=
  clamp0 (denseRows X W r)

theorem reluRows_apply {m k n : ℕ} (X : (⟨2, ![m, k]⟩ : Shape).Idx → EReal) (W : (⟨2, ![k, n]⟩ : Shape).Idx → EReal)
    (r : (⟨2, ![1, n]⟩ : Shape).Idx → EReal) (a : Fin m) (b : Fin n) :
    reluRows X W r (ix2 a b)
      = max ((∑ c : Fin k, X (ix2 a c) * W (ix2 c b)) + r (ix2 (0 : Fin 1) b)) (Ideal.ofBits .f32 0x00000000#32) := rfl

/-- A block's plain product into the zero accumulator (the block first cast to its own shape), plus the one-row matrix
    repeated down the block, then the maximum with the splat of zero: the clamped dense layer of the block's rows. -/
theorem block_reluRows {m k n : ℕ} {φ₁ φ₂ : FTy} (x0 : FVec Ideal ⟨2, ![m, k]⟩ φ₁) (x1 : FVec Ideal ⟨2, ![k, n]⟩ φ₂)
    (x2 : FVec Ideal ⟨2, ![1, n]⟩ .f32)
    (h0 : (⟨2, ![m, k]⟩ : Shape).ShapeCasts ⟨2, ![m, k]⟩)
    (h1 : (⟨2, ![1, n]⟩ : Shape).ShapeCasts ⟨2, ![1, n]⟩) (h2 : (⟨2, ![1, n]⟩ : Shape).Broadcasts ⟨2, ![m, n]⟩) :
    maximumf (addf (matmul (DotDims.plain m k n) none (shapeCast ⟨2, ![m, k]⟩ x0 h0) x1 (constant ⟨2, ![m, n]⟩ .f32 0x00000000#32))
        (broadcastTo ⟨2, ![m, n]⟩ (shapeCast ⟨2, ![1, n]⟩ x2 h1) h2))
      (broadcast ⟨2, ![m, n]⟩ (Scalar.ofBits .f32 0x00000000#32 : Ideal .f32))
      = reluRows x0 x1 x2 := by
  have e : addf (matmul (DotDims.plain m k n) none (shapeCast ⟨2, ![m, k]⟩ x0 h0) x1 (constant ⟨2, ![m, n]⟩ .f32 0x00000000#32))
      (broadcastTo ⟨2, ![m, n]⟩ (shapeCast ⟨2, ![1, n]⟩ x2 h1) h2) = denseRows x0 x1 x2 := by
    funext i
    obtain ⟨a, b, rfl⟩ : ∃ (a : Fin m) (b : Fin n), i = ix2 a b := ⟨i 0, i 1, eq_ix2 i⟩
    show matmul (DotDims.plain m k n) none (shapeCast ⟨2, ![m, k]⟩ x0 h0) x1 (constant ⟨2, ![m, n]⟩ .f32 0x00000000#32) (ix2 a b)
        + broadcastTo ⟨2, ![m, n]⟩ (shapeCast ⟨2, ![1, n]⟩ x2 h1) h2 (ix2 a b) = _
    rw [matmul_plain_zero_apply, broadcastTo_1b_ab_apply, shapeCast_self, shapeCast_self, denseRows_apply]
  rw [e]
  funext i
  rfl

/-- The host's plain product plus its two broadcasts of a length-n vector, then the maximum with the broadcast zero
    constant: the clamped dense layer with that vector as the row. -/
theorem host_reluRows {m k n : ℕ} (A : FVec Ideal ⟨2, ![m, k]⟩ .f32) (B : FVec Ideal ⟨2, ![k, n]⟩ .f32)
    (v : FVec Ideal ⟨1, ![n]⟩ .f32)
    (g1 : (⟨1, ![n]⟩ : Shape).BroadcastsInDim ⟨2, ![1, n]⟩ ![1])
    (g2 : (⟨2, ![1, n]⟩ : Shape).BroadcastsInDim ⟨2, ![m, n]⟩ ![0, 1])
    (g0 : (⟨0, ![]⟩ : Shape).BroadcastsInDim ⟨2, ![m, n]⟩ ![])
    (h : (⟨1, ![n]⟩ : Shape).ShapeCasts ⟨2, ![1, n]⟩) :
    maximumf (addf (Host.dotGeneral (DotDims.plain m k n) none A B)
        (broadcastInDim ⟨2, ![m, n]⟩ ![0, 1] g2 (broadcastInDim ⟨2, ![1, n]⟩ ![1] g1 v)))
      (broadcastInDim ⟨2, ![m, n]⟩ ![] g0 (constant (F := Ideal) ⟨0, ![]⟩ .f32 0x00000000#32))
      = reluRows A B (shapeCast ⟨2, ![1, n]⟩ v h) := by
  rw [host_dense A B v g1 g2 h, host_clamp0]
  rfl

/-- Row p of the result depends on row p of X only: where a block x0 holds, row for row, the rows e p of X, the
    result of the block at (p, q) is the result of X at (e p, q). -/
theorem reluRows_rows {m M k n : ℕ} (X : (⟨2, ![M, k]⟩ : Shape).Idx → EReal) (W : (⟨2, ![k, n]⟩ : Shape).Idx → EReal)
    (r : (⟨2, ![1, n]⟩ : Shape).Idx → EReal) (e : Fin m → Fin M) (x0 : (⟨2, ![m, k]⟩ : Shape).Idx → EReal)
    (h : ∀ (p : Fin m) (c : Fin k), x0 (ix2 p c) = X (ix2 (e p) c)) (p : Fin m) (q : Fin n) :
    reluRows x0 W r (ix2 p q) = reluRows X W r (ix2 (e p) q) := by
  rw [reluRows_apply, reluRows_apply]
  simp only [h]

end Cert.ReluRows

end
-- ==== Proof.HostChain.lean ====
/-
  The host side of the message-passing layer as pure functions of arrays, on the extended reals.

  Both programs build the same two feature arrays with the same host operations:
  * `edgeFeats x ei` — for every edge, the feature row of its source node beside the feature row of its target node:
    rows 0 and 1 of the 2×E edge list `ei` as vectors, a negative entry moved up by the node count, the rows of `x`
    gathered at them, the two gathered E×64 arrays laid side by side;
  * `nodeFeats x ei msg` — for every node, its own feature row beside the mean of the messages `msg` of the edges that
    end at it: the messages added up by target node, the edges counted by target node (ones added up), the count clamped
    below at one, the sums divided by the clamped counts, `x` and the quotients laid side by side.
  The layer's result is the clamped dense layer (`reluRows`) of the node features, in which the messages are the clamped
  dense layer of the edge features: `layerOut`.
-/
import proofs.«144825_j7971459301457_2_alg».proof.Proof.Gen.KernelIdeal
import proofs.«144825_j7971459301457_2_alg».proof.Proof.LibReluRows

noncomputable section

namespace Cert.KernelIdeal.HostChain

open Cert.KernelIdeal Cert.KernelIdeal.Facts₀ Cert.KernelIdeal.Facts
open Idealize.ShloMosaic Cert.ReluRows

/-- Row k of the edge list, as a vector of E node numbers. -/
def sources (ei : (⟨S2x1600000, .i32⟩ : BufTy).Contents (Elt Ideal)) : (⟨S1600000, .i32⟩ : BufTy).Contents (Elt Ideal) :=
  shapeCast _ (extractStridedSlice S1x1600000 ![0, 0] ei slices_S2x1600000_S1x1600000_0_0) shapeCasts_S1x1600000_S1600000

def targets (ei : (⟨S2x1600000, .i32⟩ : BufTy).Contents (Elt Ideal)) : (⟨S1600000, .i32⟩ : BufTy).Contents (Elt Ideal) :=
  shapeCast _ (extractStridedSlice S1x1600000 ![1, 0] ei slices_S2x1600000_S1x1600000_1_0) shapeCasts_S1x1600000_S1600000

/-- The rows of `x` at the node numbers `v`, a negative number first moved up by the node count. -/
def rowsAt (x : (⟨S100000x64, .f32⟩ : BufTy).Contents (Elt Ideal)) (v : (⟨S1600000, .i32⟩ : BufTy).Contents (Elt Ideal)) :
    (⟨S1600000x64, .f32⟩ : BufTy).Contents (Elt Ideal) :=
  Host.gather gather_S100000x64_S1600000x1_S1600000x64_1_0_n_n_0_1_164 x
    (broadcastInDim S1600000x1 ![0] bcast_S1600000_S1600000x1_0
      (select (cmpi .slt v (broadcastInDim S1600000 ![] bcast_S_S1600000 (constantI S_ 32 0#32)))
        (addi v (broadcastInDim S1600000 ![] bcast_S_S1600000 (constantI S_ 32 100000#32))) v))

/-- Source row beside target row, for every edge. -/
def edgeFeats (x : (⟨S100000x64, .f32⟩ : BufTy).Contents (Elt Ideal)) (ei : (⟨S2x1600000, .i32⟩ : BufTy).Contents (Elt Ideal)) :
    (⟨S1600000x128, .f32⟩ : BufTy).Contents (Elt Ideal) :=
  concatenate S1600000x128 1 [⟨S1600000x64, rowsAt x (sources ei)⟩, ⟨S1600000x64, rowsAt x (targets ei)⟩]
    concatenates_S1600000x64_S1600000x64_S1600000x128_d1

/-- The messages added up by target node. -/
def messageSums (ei : (⟨S2x1600000, .i32⟩ : BufTy).Contents (Elt Ideal)) (msg : (⟨S1600000x64, .f32⟩ : BufTy).Contents (Elt Ideal)) :
    (⟨S100000x64, .f32⟩ : BufTy).Contents (Elt Ideal) :=
  Host.scatterAdd scatter_S100000x64_S1600000x1_S1600000x64_1_0_0_1
    (broadcastInDim S100000x64 ![] bcast_S_S100000x64 (constant (F := Ideal) S_ .f32 0x00000000#32))
    (broadcastInDim S1600000x1 ![0] bcast_S1600000_S1600000x1_0 (targets ei)) msg

/-- The number of edges ending at each node, clamped below at one. -/
def clampedCounts (ei : (⟨S2x1600000, .i32⟩ : BufTy).Contents (Elt Ideal)) : (⟨S100000, .f32⟩ : BufTy).Contents (Elt Ideal) :=
  maximumf (broadcastInDim S100000 ![] bcast_S_S100000 (id (constant (F := Ideal) S_ .f32 0x3F800000#32)))
    (Host.scatterAdd scatter_S100000_S1600000x1_S1600000_n_0_0_1
      (broadcastInDim S100000 ![] bcast_S_S100000 (constant (F := Ideal) S_ .f32 0x00000000#32))
      (broadcastInDim S1600000x1 ![0] bcast_S1600000_S1600000x1_0 (targets ei))
      (broadcastInDim S1600000 ![] bcast_S_S1600000 (constant (F := Ideal) S_ .f32 0x3F800000#32)))

/-- Own row beside the mean incoming message, for every node. -/
def nodeFeats (x : (⟨S100000x64, .f32⟩ : BufTy).Contents (Elt Ideal)) (ei : (⟨S2x1600000, .i32⟩ : BufTy).Contents (Elt Ideal))
    (msg : (⟨S1600000x64, .f32⟩ : BufTy).Contents (Elt Ideal)) : (⟨S100000x128, .f32⟩ : BufTy).Contents (Elt Ideal) :=
  concatenate S100000x128 1 [⟨S100000x64, x⟩, ⟨S100000x64, Host.divf (F := Ideal) (s := S100000x64) (φ := .f32) (messageSums ei msg)
      (broadcastInDim S100000x64 ![0, 1] bcast_S100000x1_S100000x64_0_1
        (broadcastInDim S100000x1 ![0] bcast_S100000_S100000x1_0 (clampedCounts ei)))⟩]
    concatenates_S100000x64_S100000x64_S100000x128_d1

/-- A length-64 bias vector laid out as a 1×64 row. -/
def biasRow (v : (⟨S64, .f32⟩ : BufTy).Contents (Elt Ideal)) : (⟨S1x64, .f32⟩ : BufTy).Contents (Elt Ideal) :=
  shapeCast _ v shapeCasts_S64_S1x64

/-- The layer's result: the update layer of the node features, whose messages are the message layer of the edge
    features. -/
def layerOut (x : (⟨S100000x64, .f32⟩ : BufTy).Contents (Elt Ideal)) (ei : (⟨S2x1600000, .i32⟩ : BufTy).Contents (Elt Ideal))
    (Wm : (⟨S128x64, .f32⟩ : BufTy).Contents (Elt Ideal)) (bm : (⟨S64, .f32⟩ : BufTy).Contents (Elt Ideal))
    (Wu : (⟨S128x64, .f32⟩ : BufTy).Contents (Elt Ideal)) (bu : (⟨S64, .f32⟩ : BufTy).Contents (Elt Ideal)) :
    (⟨S100000x64, .f32⟩ : BufTy).Contents (Elt Ideal) :=
  reluRows (m := 100000) (k := 128) (n := 64)
    (nodeFeats x ei (reluRows (m := 1600000) (k := 128) (n := 64) (edgeFeats x ei) Wm (biasRow bm))) Wu (biasRow bu)

end Cert.KernelIdeal.HostChain

end
-- ==== Proof.MessageRegion.lean ====
/-
  The first region (the message layer): its output array as one function of the arrays it finds on entry.

  The region's grid has 80 points. Point t stages rows [20000·t, 20000·t + 20000) of the 1600000×128 feature array,
  the whole 128×64 weight matrix and the whole 1×64 bias row, and writes back rows [20000·t, 20000·t + 20000) of the
  1600000×64 output. The body computes, of what it staged, the clamped dense layer
  max(Σ_c feats(p, c) · W(c, q) + bias(0, q), 0) (`reluRows`). Row p of a clamped dense layer depends on row p of the
  features only, so what point t writes back is block t of the clamped dense layer of the WHOLE feature array; the 80
  blocks tile the output (row r lies in block r / 20000), so the output array ends holding that whole-array function
  of the arrays the region found on entry.
-/
import proofs.«144825_j7971459301457_2_alg».proof.Proof.Gen.KernelIdeal.Frame
import proofs.«144825_j7971459301457_2_alg».proof.Proof.LibReluRows

set_option maxRecDepth 16384

noncomputable section

namespace Cert.KernelIdeal.MessageRegion

open Cert.KernelIdeal Cert.KernelIdeal.Gen
open Idealize.ShloMosaic Idealize.ShloMosaic.TcCoe Idealize.ShloMosaic.ValueIdx Idealize.SL.Sem
open Cert.ReluRows

variable (V : (c : Dev nD) → (b : Ref sig .tc) → Buf (Elt Ideal) ((c : Thread nD τ).loc b))

theorem offsets_zero : (![0, 0] : Fin 2 → Nat) = fun _ => 0 := funext fun a => by fin_cases a <;> rfl

/-- The body's stored value is the clamped dense layer of the blocks it loaded. -/
theorem payload_eq (x0 : Vec Ideal S20000x128 .f32) (x1 : Vec Ideal S128x64 .f32) (x2 : Vec Ideal S1x64 .f32) :
    k0_pay1 x0 x1 x2 = reluRows x0 x1 x2 := by
  unfold k0_pay1
  exact block_reluRows (m := 20000) (k := 128) (n := 64) x0 x1 x2 _ _ _

/-- The printed index maps over the grid: the feature window and the output window are at block (t, 0), the weight
    and bias windows at block (0, 0). -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The weight window's block at any point is the whole weight matrix. -/
theorem weights_block (c : Dev nD) (t : Fin cfg0.N) :
    iblk0 V c 1 t = (V c main_arg2 : S128x64.Idx → EReal) := by
  obtain ⟨-, -, e10, e11, -, -, -, -⟩ := block_indices t
  funext y
  show V c main_arg2 (((cfg0.win 1).blk t).view.emb y) = V c main_arg2 y
  refine congrArg (V c main_arg2) ?_
  funext a; apply Fin.ext
  match a with
  | ⟨0, _⟩ => show win0_1.index t (0 : Fin 2) * 128 + 1 * (y 0).val = (y 0).val; omega
  | ⟨1, _⟩ => show win0_1.index t (1 : Fin 2) * 64 + 1 * (y 1).val = (y 1).val; omega

/-- The bias window's block at any point is the whole bias row. -/
theorem bias_block (c : Dev nD) (t : Fin cfg0.N) :
    iblk0 V c 2 t = (V c main_v19 : S1x64.Idx → EReal) := by
  obtain ⟨-, -, -, -, e20, e21, -, -⟩ := block_indices t
  funext y
  show V c main_v19 (((cfg0.win 2).blk t).view.emb y) = V c main_v19 y
  refine congrArg (V c main_v19) ?_
  funext a; apply Fin.ext
  match a with
  | ⟨0, _⟩ => show win0_2.index t (0 : Fin 2) * 1 + 1 * (y 0).val = (y 0).val; omega
  | ⟨1, _⟩ => show win0_2.index t (1 : Fin 2) * 64 + 1 * (y 1).val = (y 1).val; omega

/-- Row 20000·t + p of the array, for a row p of block t. -/
def rowOf (t : Fin cfg0.N) (p : Fin 20000) : Fin 1600000 :=
  ⟨t.val * 20000 + p.val, by have ht : t.val < 80 := lt_of_lt_of_eq t.isLt N_0; have := p.isLt; omega⟩

/-- The feature window's block at point t holds, row for row, rows 20000·t + p of the feature array. -/
theorem feats_block (c : Dev nD) (t : Fin cfg0.N) (p : Fin 20000) (k : Fin 128) :
    iblk0 V c 0 t (ix2 p k) = (V c main_v18 : S1600000x128.Idx → EReal) (ix2 (rowOf t p) k) := by
  obtain ⟨e00, e01, -, -, -, -, -, -⟩ := block_indices t
  show V c main_v18 (((cfg0.win 0).blk t).view.emb (ix2 p k)) = V c main_v18 (ix2 (rowOf t p) k)
  refine congrArg (V c main_v18) ?_
  funext a; apply Fin.ext
  match a with
  | ⟨0, _⟩ => show win0_0.index t (0 : Fin 2) * 20000 + 1 * p.val = t.val * 20000 + p.val; omega
  | ⟨1, _⟩ => show win0_0.index t (1 : Fin 2) * 128 + 1 * k.val = k.val; omega

/-- WHAT POINT t WRITES BACK is block t of the clamped dense layer of the whole arrays the region found. -/
theorem flushed_eq (c : Dev nD) (t : Fin cfg0.N) :
    (dat0 V c).flushed 3 t = ((cfg0.win 3).blk t).view.read (Elt Ideal)
      (reluRows (V c main_v18 : S1600000x128.Idx → EReal) (V c main_arg2 : S128x64.Idx → EReal) (V c main_v19 : S1x64.Idx → EReal)) := by
  show (cfg0.win 3).cut (grid0.coords t) ((dat0 V c).after 3 t) = _
  rw [after0_3]
  unfold out0_3
  rw [View.canon_unit_zero offsets_zero]
  simp only [View.ld_unit_zero (S := S20000x128) offsets_zero, View.ld_unit_zero (S := S128x64) offsets_zero,
    View.ld_unit_zero (S := S1x64) offsets_zero]
  rw [payload_eq, weights_block, bias_block]
  obtain ⟨-, -, -, -, -, -, e30, e31⟩ := block_indices t
  funext j
  obtain ⟨p, q, rfl⟩ : ∃ (p : Fin 20000) (q : Fin 64), j = ix2 p q := ⟨j 0, j 1, eq_ix2 j⟩
  show reluRows (iblk0 V c 0 t) (V c main_arg2 : S128x64.Idx → EReal) (V c main_v19 : S1x64.Idx → EReal) (ix2 p q)
    = reluRows (V c main_v18 : S1600000x128.Idx → EReal) (V c main_arg2 : S128x64.Idx → EReal) (V c main_v19 : S1x64.Idx → EReal)
        (((cfg0.win 3).blk t).view.emb (ix2 p q))
  have hemb : ((cfg0.win 3).blk t).view.emb (ix2 p q) = (ix2 (rowOf t p) q : S1600000x64.Idx) := by
    funext a; apply Fin.ext
    match a with
    | ⟨0, _⟩ => show win0_3.index t (0 : Fin 2) * 20000 + 1 * p.val = t.val * 20000 + p.val; omega
    | ⟨1, _⟩ => show win0_3.index t (1 : Fin 2) * 64 + 1 * q.val = q.val; omega
  rw [hemb]
  exact reluRows_rows (V c main_v18 : S1600000x128.Idx → EReal) (V c main_arg2 : S128x64.Idx → EReal) (V c main_v19 : S1x64.Idx → EReal)
    (rowOf t) (iblk0 V c 0 t) (fun p k => feats_block V c t p k) p q

/-- An index of the output array is in point t's block iff each coordinate is in the block's range on its axis. -/
theorem mem_block (t : Fin cfg0.N) (i : S1600000x64.Idx) :
    i ∈ ((cfg0.win 3).blk t).view.set ↔ ∀ a : Fin 2, win0_3.index t a * S20000x64.size a ≤ (i a).val
      ∧ (i a).val < win0_3.index t a * S20000x64.size a + S20000x64.size a := by
  show i ∈ ((View.whole main_v20).slice (win0_3.rect t)).set ↔ _
  rw [View.set_slice_whole, Rect.mem_set_unit]
  exact Iff.rfl

/-- The blocks tile the output: row r lies in the block of point r / 20000, and every point writes its block back. -/
theorem covered (i : S1600000x64.Idx) :
    ∃ t : Fin cfg0.N, (cfg0.win 3).flush t = true ∧ i ∈ ((cfg0.win 3).blk t).view.set := by
  have hi0 : (i 0).val < 1600000 := (i 0).isLt
  have hi1 : (i 1).val < 64 := (i 1).isLt
  have hN : (i 0).val / 20000 < cfg0.N := lt_of_lt_of_eq (by omega : (i 0).val / 20000 < 80) N_0.symm
  obtain ⟨-, -, -, -, -, -, e30, e31⟩ := block_indices ⟨(i 0).val / 20000, hN⟩
  refine ⟨⟨(i 0).val / 20000, hN⟩, flush0_3 _, ?_⟩
  rw [mem_block]
  intro a
  match a with
  | ⟨0, _⟩ =>
    show win0_3.index ⟨(i 0).val / 20000, hN⟩ (0 : Fin 2) * 20000 ≤ (i 0).val
      ∧ (i 0).val < win0_3.index ⟨(i 0).val / 20000, hN⟩ (0 : Fin 2) * 20000 + 20000
    rw [e30]
    show (i 0).val / 20000 * 20000 ≤ (i 0).val ∧ (i 0).val < (i 0).val / 20000 * 20000 + 20000
    omega
  | ⟨1, _⟩ =>
    show win0_3.index ⟨(i 0).val / 20000, hN⟩ (1 : Fin 2) * 64 ≤ (i 1).val
      ∧ (i 1).val < win0_3.index ⟨(i 0).val / 20000, hN⟩ (1 : Fin 2) * 64 + 64
    omega

/-- THE OUTPUT ARRAY after the region: the clamped dense layer of the edge features, the message weights and the message bias row as the region found them. -/
theorem output_eq (c : Dev nD) :
    (dat0 V c).arrAt 3 cfg0.N
      = reluRows (V c main_v18 : S1600000x128.Idx → EReal) (V c main_arg2 : S128x64.Idx → EReal) (V c main_v19 : S1x64.Idx → EReal) :=
  (dat0 V c).arrAt_eq_of_cover 3 _ (fun t _ => flushed_eq V c t) (covered)

end Cert.KernelIdeal.MessageRegion

end
-- ==== Proof.UpdateRegion.lean ====
/-
  The second region (the update layer): its output array as one function of the arrays it finds on entry.

  The region's grid has 5 points. Point t stages rows [20000·t, 20000·t + 20000) of the 100000×128 feature array,
  the whole 128×64 weight matrix and the whole 1×64 bias row, and writes back rows [20000·t, 20000·t + 20000) of the
  100000×64 output. The body computes, of what it staged, the clamped dense layer
  max(Σ_c feats(p, c) · W(c, q) + bias(0, q), 0) (`reluRows`). Row p of a clamped dense layer depends on row p of the
  features only, so what point t writes back is block t of the clamped dense layer of the WHOLE feature array; the 5
  blocks tile the output (row r lies in block r / 20000), so the output array ends holding that whole-array function
  of the arrays the region found on entry.
-/
import proofs.«144825_j7971459301457_2_alg».proof.Proof.Gen.KernelIdeal.Frame
import proofs.«144825_j7971459301457_2_alg».proof.Proof.LibReluRows

set_option maxRecDepth 16384

noncomputable section

namespace Cert.KernelIdeal.UpdateRegion

open Cert.KernelIdeal Cert.KernelIdeal.Gen
open Idealize.ShloMosaic Idealize.ShloMosaic.TcCoe Idealize.ShloMosaic.ValueIdx Idealize.SL.Sem
open Cert.ReluRows

variable (V : (c : Dev nD) → (b : Ref sig .tc) → Buf (Elt Ideal) ((c : Thread nD τ).loc b))

theorem offsets_zero : (![0, 0] : Fin 2 → Nat) = fun _ => 0 := funext fun a => by fin_cases a <;> rfl

/-- The body's stored value is the clamped dense layer of the blocks it loaded. -/
theorem payload_eq (x0 : Vec Ideal S20000x128 .f32) (x1 : Vec Ideal S128x64 .f32) (x2 : Vec Ideal S1x64 .f32) :
    k1_pay1 x0 x1 x2 = reluRows x0 x1 x2 := by
  unfold k1_pay1
  exact block_reluRows (m := 20000) (k := 128) (n := 64) x0 x1 x2 _ _ _

/-- The printed index maps over the grid: the feature window and the output window are at block (t, 0), the weight
    and bias windows at block (0, 0). -/
theorem block_indices : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The weight window's block at any point is the whole weight matrix. -/
theorem weights_block (c : Dev nD) (t : Fin cfg1.N) :
    iblk1 V c 1 t = (V c main_arg4 : S128x64.Idx → EReal) := by
  obtain ⟨-, -, e10, e11, -, -, -, -⟩ := block_indices t
  funext y
  show V c main_arg4 (((cfg1.win 1).blk t).view.emb y) = V c main_arg4 y
  refine congrArg (V c main_arg4) ?_
  funext a; apply Fin.ext
  match a with
  | ⟨0, _⟩ => show win1_1.index t (0 : Fin 2) * 128 + 1 * (y 0).val = (y 0).val; omega
  | ⟨1, _⟩ => show win1_1.index t (1 : Fin 2) * 64 + 1 * (y 1).val = (y 1).val; omega

/-- The bias window's block at any point is the whole bias row. -/
theorem bias_block (c : Dev nD) (t : Fin cfg1.N) :
    iblk1 V c 2 t = (V c main_v33 : S1x64.Idx → EReal) := by
  obtain ⟨-, -, -, -, e20, e21, -, -⟩ := block_indices t
  funext y
  show V c main_v33 (((cfg1.win 2).blk t).view.emb y) = V c main_v33 y
  refine congrArg (V c main_v33) ?_
  funext a; apply Fin.ext
  match a with
  | ⟨0, _⟩ => show win1_2.index t (0 : Fin 2) * 1 + 1 * (y 0).val = (y 0).val; omega
  | ⟨1, _⟩ => show win1_2.index t (1 : Fin 2) * 64 + 1 * (y 1).val = (y 1).val; omega

/-- Row 20000·t + p of the array, for a row p of block t. -/
def rowOf (t : Fin cfg1.N) (p : Fin 20000) : Fin 100000 :=
  ⟨t.val * 20000 + p.val, by have ht : t.val < 5 := lt_of_lt_of_eq t.isLt N_1; have := p.isLt; omega⟩

/-- The feature window's block at point t holds, row for row, rows 20000·t + p of the feature array. -/
theorem feats_block (c : Dev nD) (t : Fin cfg1.N) (p : Fin 20000) (k : Fin 128) :
    iblk1 V c 0 t (ix2 p k) = (V c main_v32 : S100000x128.Idx → EReal) (ix2 (rowOf t p) k) := by
  obtain ⟨e00, e01, -, -, -, -, -, -⟩ := block_indices t
  show V c main_v32 (((cfg1.win 0).blk t).view.emb (ix2 p k)) = V c main_v32 (ix2 (rowOf t p) k)
  refine congrArg (V c main_v32) ?_
  funext a; apply Fin.ext
  match a with
  | ⟨0, _⟩ => show win1_0.index t (0 : Fin 2) * 20000 + 1 * p.val = t.val * 20000 + p.val; omega
  | ⟨1, _⟩ => show win1_0.index t (1 : Fin 2) * 128 + 1 * k.val = k.val; omega

/-- WHAT POINT t WRITES BACK is block t of the clamped dense layer of the whole arrays the region found. -/
theorem flushed_eq (c : Dev nD) (t : Fin cfg1.N) :
    (dat1 V c).flushed 3 t = ((cfg1.win 3).blk t).view.read (Elt Ideal)
      (reluRows (V c main_v32 : S100000x128.Idx → EReal) (V c main_arg4 : S128x64.Idx → EReal) (V c main_v33 : S1x64.Idx → EReal)) := by
  show (cfg1.win 3).cut (grid1.coords t) ((dat1 V c).after 3 t) = _
  rw [after1_3]
  unfold out1_3
  rw [View.canon_unit_zero offsets_zero]
  simp only [View.ld_unit_zero (S := S20000x128) offsets_zero, View.ld_unit_zero (S := S128x64) offsets_zero,
    View.ld_unit_zero (S := S1x64) offsets_zero]
  rw [payload_eq, weights_block, bias_block]
  obtain ⟨-, -, -, -, -, -, e30, e31⟩ := block_indices t
  funext j
  obtain ⟨p, q, rfl⟩ : ∃ (p : Fin 20000) (q : Fin 64), j = ix2 p q := ⟨j 0, j 1, eq_ix2 j⟩
  show reluRows (iblk1 V c 0 t) (V c main_arg4 : S128x64.Idx → EReal) (V c main_v33 : S1x64.Idx → EReal) (ix2 p q)
    = reluRows (V c main_v32 : S100000x128.Idx → EReal) (V c main_arg4 : S128x64.Idx → EReal) (V c main_v33 : S1x64.Idx → EReal)
        (((cfg1.win 3).blk t).view.emb (ix2 p q))
  have hemb : ((cfg1.win 3).blk t).view.emb (ix2 p q) = (ix2 (rowOf t p) q : S100000x64.Idx) := by
    funext a; apply Fin.ext
    match a with
    | ⟨0, _⟩ => show win1_3.index t (0 : Fin 2) * 20000 + 1 * p.val = t.val * 20000 + p.val; omega
    | ⟨1, _⟩ => show win1_3.index t (1 : Fin 2) * 64 + 1 * q.val = q.val; omega
  rw [hemb]
  exact reluRows_rows (V c main_v32 : S100000x128.Idx → EReal) (V c main_arg4 : S128x64.Idx → EReal) (V c main_v33 : S1x64.Idx → EReal)
    (rowOf t) (iblk1 V c 0 t) (fun p k => feats_block V c t p k) p q

/-- An index of the output array is in point t's block iff each coordinate is in the block's range on its axis. -/
theorem mem_block (t : Fin cfg1.N) (i : S100000x64.Idx) :
    i ∈ ((cfg1.win 3).blk t).view.set ↔ ∀ a : Fin 2, win1_3.index t a * S20000x64.size a ≤ (i a).val
      ∧ (i a).val < win1_3.index t a * S20000x64.size a + S20000x64.size a := by
  show i ∈ ((View.whole main_v34).slice (win1_3.rect t)).set ↔ _
  rw [View.set_slice_whole, Rect.mem_set_unit]
  exact Iff.rfl

/-- The blocks tile the output: row r lies in the block of point r / 20000, and every point writes its block back. -/
theorem covered (i : S100000x64.Idx) :
    ∃ t : Fin cfg1.N, (cfg1.win 3).flush t = true ∧ i ∈ ((cfg1.win 3).blk t).view.set := by
  have hi0 : (i 0).val < 100000 := (i 0).isLt
  have hi1 : (i 1).val < 64 := (i 1).isLt
  have hN : (i 0).val / 20000 < cfg1.N := lt_of_lt_of_eq (by omega : (i 0).val / 20000 < 5) N_1.symm
  obtain ⟨-, -, -, -, -, -, e30, e31⟩ := block_indices ⟨(i 0).val / 20000, hN⟩
  refine ⟨⟨(i 0).val / 20000, hN⟩, flush1_3 _, ?_⟩
  rw [mem_block]
  intro a
  match a with
  | ⟨0, _⟩ =>
    show win1_3.index ⟨(i 0).val / 20000, hN⟩ (0 : Fin 2) * 20000 ≤ (i 0).val
      ∧ (i 0).val < win1_3.index ⟨(i 0).val / 20000, hN⟩ (0 : Fin 2) * 20000 + 20000
    rw [e30]
    show (i 0).val / 20000 * 20000 ≤ (i 0).val ∧ (i 0).val < (i 0).val / 20000 * 20000 + 20000
    omega
  | ⟨1, _⟩ =>
    show win1_3.index ⟨(i 0).val / 20000, hN⟩ (1 : Fin 2) * 64 ≤ (i 1).val
      ∧ (i 1).val < win1_3.index ⟨(i 0).val / 20000, hN⟩ (1 : Fin 2) * 64 + 64
    omega

/-- THE OUTPUT ARRAY after the region: the clamped dense layer of the node features, the update weights and the update bias row as the region found them. -/
theorem output_eq (c : Dev nD) :
    (dat1 V c).arrAt 3 cfg1.N
      = reluRows (V c main_v32 : S100000x128.Idx → EReal) (V c main_arg4 : S128x64.Idx → EReal) (V c main_v33 : S1x64.Idx → EReal) :=
  (dat1 V c).arrAt_eq_of_cover 3 _ (fun t _ => flushed_eq V c t) (covered)

end Cert.KernelIdeal.UpdateRegion

end
-- ==== Proof.LibLiteralRefs.lean ====
/-
  A typed reference whose type equation is between a buffer's type and itself transports nothing.

  A typed reference carries an equation "the buffer's type is the value's type", and storing or reading through it
  transports the value along that equation. When the value's type IS the buffer's type the equation is reflexivity,
  whatever proof of it the reference carries, so both transports are the identity. (For a literal buffer whose type
  computes to the value's type this removes the transport at the producer's or the consumer's end alone, where no
  matching transport back is there to cancel it.)
-/
import Idealize.ShloMosaic.Lib.StableHlo

namespace Cert.LibLiteralRefs

open Idealize.ShloMosaic Idealize.ShloMosaic.StableHlo

variable {sig : RefSig} {Val : EltTy → Type}

/-- Storing through a reference typed at its buffer's own type is the identity. -/
theorem toBuf_literal (r : Ref sig .tc) (h1 : r.ty = r.ty) (h2 : r.space ≠ .host) (h3 : r.isScoped = false)
    (v : r.ty.Contents Val) : (⟨r, h1, h2, h3⟩ : TRef sig r.ty).toBuf v = v := rfl

/-- Reading through a reference typed at its buffer's own type is the identity. -/
theorem ofBuf_literal (r : Ref sig .tc) (h1 : r.ty = r.ty) (h2 : r.space ≠ .host) (h3 : r.isScoped = false)
    (w : r.ty.Contents Val) : (⟨r, h1, h2, h3⟩ : TRef sig r.ty).ofBuf w = w := rfl

end Cert.LibLiteralRefs
-- ==== Proof.KernelValue.lean ====
/-
  The kernel program's result is the layer's function of the arguments.

  The buffer contents at the segment boundaries are read back through the fold, last to first:
  * the result buffer is the second region's output array, which ends holding the clamped dense layer of the node
    features, the update weights and the update bias row the region found on entry;
  * on entry to the second region the node features are `nodeFeats` of the argument arrays and of the first region's
    output array (three stretches of host operations, none of which writes an argument), the weights are the fifth
    argument and the bias row is the sixth argument laid out as a row;
  * the first region's output array ends holding the clamped dense layer of the edge features, the message weights and
    the message bias row it found on entry, which the first stretch of host operations left at `edgeFeats` of the
    arguments, the third argument, and the fourth argument laid out as a row.
  The clamp of the counts is an outlined function whose operations store and read through typed references; each such
  store or read is a transport along "the buffer's type is the value's type", the identity here, and is removed before
  the two sides are compared.
-/
import proofs.«144825_j7971459301457_2_alg».proof.Proof.Gen.KernelIdeal.Frame
import proofs.«144825_j7971459301457_2_alg».proof.Proof.HostChain
import proofs.«144825_j7971459301457_2_alg».proof.Proof.MessageRegion
import proofs.«144825_j7971459301457_2_alg».proof.Proof.UpdateRegion
import proofs.«144825_j7971459301457_2_alg».proof.Proof.LibLiteralRefs

set_option maxRecDepth 16384

noncomputable section

namespace Cert.KernelIdeal.KernelValue

open Cert.KernelIdeal Cert.KernelIdeal.Gen
open Idealize.ShloMosaic Idealize.ShloMosaic.TcCoe Idealize.SL.Sem Idealize.ShloMosaic.StableHlo
open Cert.ReluRows Cert.KernelIdeal.HostChain

/-! ## The three stretches of host operations between the regions, from any contents `U` -/

set_option maxHeartbeats 4000000 in
/-- They leave the node features at `nodeFeats` of the first argument, the edge list whose row of targets `U` holds,
    and the messages `U` holds. -/
theorem between_feats (U : Valuation τ sig (Elt Ideal)) (x : (⟨S100000x64, .f32⟩ : BufTy).Contents (Elt Ideal))
    (ei : (⟨S2x1600000, .i32⟩ : BufTy).Contents (Elt Ideal)) (msg : (⟨S1600000x64, .f32⟩ : BufTy).Contents (Elt Ideal))
    (hx : U (Proc.devRef .tc main_arg0) = x) (ht : U (Proc.devRef .tc main_v3) = targets ei)
    (hm : U (Proc.devRef .tc main_v20) = msg) :
    StableHlo.after hostOps1_2 (StableHlo.after hostOps1_1 (StableHlo.after hostOps1 U)) (Proc.devRef .tc main_v32)
      = nodeFeats x ei msg := by
  after_results
  rw [hx, ht, hm]
  repeat (first
    | rw [Cert.LibLiteralRefs.toBuf_literal main_v28 rfl (by decide) rfl]
    | rw [Cert.LibLiteralRefs.ofBuf_literal main_v28 rfl (by decide) rfl]
    | rw [Cert.LibLiteralRefs.toBuf_literal main_cst_5 rfl (by decide) rfl]
    | rw [Cert.LibLiteralRefs.ofBuf_literal main_cst_5 rfl (by decide) rfl])
  rfl

set_option maxHeartbeats 4000000 in
/-- They do not write the update weights. -/
theorem between_weights (U : Valuation τ sig (Elt Ideal)) :
    StableHlo.after hostOps1_2 (StableHlo.after hostOps1_1 (StableHlo.after hostOps1 U)) (Proc.devRef .tc main_arg4)
      = U (Proc.devRef .tc main_arg4) := by
  after_results

set_option maxHeartbeats 4000000 in
/-- They leave the update bias as a row. -/
theorem between_bias (U : Valuation τ sig (Elt Ideal)) :
    StableHlo.after hostOps1_2 (StableHlo.after hostOps1_1 (StableHlo.after hostOps1 U)) (Proc.devRef .tc main_v33)
      = biasRow (U (Proc.devRef .tc main_arg5)) := by
  after_results
  rfl

variable (m : (ℓ : Loc nD τ sig) → Buf (Elt Ideal) ℓ) (ρ : Dev nD → PrngReg)

/-! ## What the first stretch of host operations leaves -/

set_option maxHeartbeats 2000000 in
theorem edge_feats_entry (c : Dev nD) :
    V1 m ρ c main_v18 = edgeFeats (m ((c : Thread nD τ).loc main_arg0)) (m ((c : Thread nD τ).loc main_arg1)) := by
  show StableHlo.after hostOps0 (W0 m ρ c) (Proc.devRef .tc main_v18) = _
  after_results_simp
  rfl

set_option maxHeartbeats 2000000 in
theorem targets_entry (c : Dev nD) :
    W1 m ρ c (Proc.devRef .tc main_v3) = targets (m ((c : Thread nD τ).loc main_arg1)) := by
  show StableHlo.after hostOps0 (W0 m ρ c) (Proc.devRef .tc main_v3) = _
  after_results_simp
  rfl

set_option maxHeartbeats 2000000 in
theorem message_bias_entry (c : Dev nD) : V1 m ρ c main_v19 = biasRow (m ((c : Thread nD τ).loc main_arg3)) := by
  show StableHlo.after hostOps0 (W0 m ρ c) (Proc.devRef .tc main_v19) = _
  after_results_simp
  rfl

set_option maxHeartbeats 2000000 in
/-- It writes no argument. -/
theorem arg_entry (c : Dev nD) :
    W1 m ρ c (Proc.devRef .tc main_arg0) = (m ((c : Thread nD τ).loc main_arg0))
    ∧ W1 m ρ c (Proc.devRef .tc main_arg2) = (m ((c : Thread nD τ).loc main_arg2))
    ∧ W1 m ρ c (Proc.devRef .tc main_arg4) = (m ((c : Thread nD τ).loc main_arg4))
    ∧ W1 m ρ c (Proc.devRef .tc main_arg5) = (m ((c : Thread nD τ).loc main_arg5)) := by
  refine ⟨?_, ?_, ?_, ?_⟩
  · show StableHlo.after hostOps0 (W0 m ρ c) (Proc.devRef .tc main_arg0) = _
    after_results_simp
  · show StableHlo.after hostOps0 (W0 m ρ c) (Proc.devRef .tc main_arg2) = _
    after_results_simp
  · show StableHlo.after hostOps0 (W0 m ρ c) (Proc.devRef .tc main_arg4) = _
    after_results_simp
  · show StableHlo.after hostOps0 (W0 m ρ c) (Proc.devRef .tc main_arg5) = _
    after_results_simp

/-! ## The first region's output array: the messages -/

theorem messages_eq (c : Dev nD) :
    W2 m ρ c (Proc.devRef .tc main_v20)
      = reluRows (m := 1600000) (k := 128) (n := 64) (edgeFeats (m ((c : Thread nD τ).loc main_arg0)) (m ((c : Thread nD τ).loc main_arg1))) (m ((c : Thread nD τ).loc main_arg2)) (biasRow (m ((c : Thread nD τ).loc main_arg3))) := by
  refine (W2_arr m ρ c 3).trans ((MessageRegion.output_eq (V1 m ρ) c).trans ?_)
  rw [edge_feats_entry m ρ c, message_bias_entry m ρ c]
  rw [show V1 m ρ c main_arg2 = (m ((c : Thread nD τ).loc main_arg2)) from (arg_entry m ρ c).2.1]

/-! ## What the second region finds on entry -/

theorem node_feats_entry (c : Dev nD) :
    V5 m ρ c main_v32 = nodeFeats (m ((c : Thread nD τ).loc main_arg0)) (m ((c : Thread nD τ).loc main_arg1)) (W2 m ρ c (Proc.devRef .tc main_v20)) :=
  between_feats (W2 m ρ c) _ _ _
    ((W2_of_ne m ρ c main_arg0 (by decide)).trans (arg_entry m ρ c).1)
    ((W2_of_ne m ρ c main_v3 (by decide)).trans (targets_entry m ρ c)) rfl

theorem update_weights_entry (c : Dev nD) : V5 m ρ c main_arg4 = (m ((c : Thread nD τ).loc main_arg4)) :=
  (between_weights (W2 m ρ c)).trans ((W2_of_ne m ρ c main_arg4 (by decide)).trans (arg_entry m ρ c).2.2.1)

theorem update_bias_entry (c : Dev nD) : V5 m ρ c main_v33 = biasRow (m ((c : Thread nD τ).loc main_arg5)) :=
  (between_bias (W2 m ρ c)).trans (congrArg biasRow ((W2_of_ne m ρ c main_arg5 (by decide)).trans (arg_entry m ρ c).2.2.2))

/-! ## The result -/

/-- The result buffer's contents at the last boundary: the layer's function of the arguments. -/
theorem result_eq (c : Dev nD) :
    W6 m ρ c (Proc.devRef .tc main_v34)
      = layerOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W6_arr m ρ c 3).trans ((UpdateRegion.output_eq (V5 m ρ) c).trans ?_)
  rw [node_feats_entry m ρ c, update_weights_entry m ρ c, update_bias_entry m ρ c, messages_eq m ρ c]
  rfl

end Cert.KernelIdeal.KernelValue

end
-- ==== Proof.RefValue.lean ====
/-
  The reference's result is the layer's function of the arguments.

  The reference computes both dense layers with host operations on whole arrays — the plain product, the bias through
  two broadcasts, the maximum with the broadcast zero constant — and builds the edge and node features with the same
  host operations as the kernel program. Each of its two layers is the clamped dense layer (`reluRows`) of its inputs,
  the bias vector laid out as a row, so its composed result term is `layerOut` of the argument arrays.
-/
import proofs.«144825_j7971459301457_2_alg».proof.Proof.Gen.ReferenceIdeal.Run
import proofs.«144825_j7971459301457_2_alg».proof.Proof.HostChain

noncomputable section

namespace Cert.ReferenceIdeal.RefValue

open Cert.ReferenceIdeal Cert.ReferenceIdeal.Gen
open Idealize.ShloMosaic Cert.ReluRows
open Cert.KernelIdeal.HostChain (layerOut edgeFeats nodeFeats biasRow)

variable (x : FVec Ideal S100000x64 .f32) (ei : (⟨S2x1600000, .i32⟩ : BufTy).Contents (Elt Ideal))
  (Wm : FVec Ideal S128x64 .f32) (bm : FVec Ideal S64 .f32) (Wu : FVec Ideal S128x64 .f32) (bu : FVec Ideal S64 .f32)

/-- The reference's messages: its host dense layer over the edge features is their clamped dense layer. -/
theorem messages_eq :
    (maximumf (addf (Host.dotGeneral dot_S1600000x128_S128x64_S1600000x64_1_0_0_1_n_n none (concatenate S1600000x128 1 [⟨S1600000x64, (Host.gather gather_S100000x64_S1600000x1_S1600000x64_1_0_n_n_0_1_164 x (broadcastInDim S1600000x1 ![0] bcast_S1600000_S1600000x1_0 (select (cmpi .slt (shapeCast _ (extractStridedSlice S1x1600000 ![0, 0] ei slices_S2x1600000_S1x1600000_0_0) shapeCasts_S1x1600000_S1600000) (broadcastInDim S1600000 ![] bcast_S_S1600000 (constantI S_ 32 0#32))) (addi (shapeCast _ (extractStridedSlice S1x1600000 ![0, 0] ei slices_S2x1600000_S1x1600000_0_0) shapeCasts_S1x1600000_S1600000) (broadcastInDim S1600000 ![] bcast_S_S1600000 (constantI S_ 32 100000#32))) (shapeCast _ (extractStridedSlice S1x1600000 ![0, 0] ei slices_S2x1600000_S1x1600000_0_0) shapeCasts_S1x1600000_S1600000))))⟩, ⟨S1600000x64, (Host.gather gather_S100000x64_S1600000x1_S1600000x64_1_0_n_n_0_1_164 x (broadcastInDim S1600000x1 ![0] bcast_S1600000_S1600000x1_0 (select (cmpi .slt (shapeCast _ (extractStridedSlice S1x1600000 ![1, 0] ei slices_S2x1600000_S1x1600000_1_0) shapeCasts_S1x1600000_S1600000) (broadcastInDim S1600000 ![] bcast_S_S1600000 (constantI S_ 32 0#32))) (addi (shapeCast _ (extractStridedSlice S1x1600000 ![1, 0] ei slices_S2x1600000_S1x1600000_1_0) shapeCasts_S1x1600000_S1600000) (broadcastInDim S1600000 ![] bcast_S_S1600000 (constantI S_ 32 100000#32))) (shapeCast _ (extractStridedSlice S1x1600000 ![1, 0] ei slices_S2x1600000_S1x1600000_1_0) shapeCasts_S1x1600000_S1600000))))⟩] concatenates_S1600000x64_S1600000x64_S1600000x128_d1) Wm) (broadcastInDim S1600000x64 ![0, 1] bcast_S1x64_S1600000x64_0_1 (broadcastInDim S1x64 ![1] bcast_S64_S1x64_1 bm))) (broadcastInDim S1600000x64 ![] bcast_S_S1600000x64 (constant S_ .f32 0x00000000#32)) : FVec Ideal S1600000x64 .f32)
      = reluRows (m := 1600000) (k := 128) (n := 64) (edgeFeats x ei) Wm (biasRow bm) :=
  host_reluRows (m := 1600000) (k := 128) (n := 64) (edgeFeats x ei) Wm bm _ _ _ _

/-- The reference's node features, over the clamped dense layer of the edge features as messages, are `nodeFeats`. -/
theorem node_feats_eq :
    (concatenate S100000x128 1 [⟨S100000x64, x⟩, ⟨S100000x64, (Host.divf (Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 (shapeCast _ (extractStridedSlice S1x1600000 ![1, 0] ei slices_S2x1600000_S1x1600000_1_0) shapeCasts_S1x1600000_S1600000)) (reluRows (m := 1600000) (k := 128) (n := 64) (edgeFeats x ei) Wm (biasRow bm))) (broadcastInDim S100000x64 ![0, 1] bcast_S100000x1_S100000x64_0_1 (broadcastInDim S100000x1 ![0] bcast_S100000_S100000x1_0 (maximumf (broadcastInDim S100000 ![] bcast_S_S100000 (id (constant S_ .f32 0x3F800000#32))) (Host.scatterAdd scatter_S100000_S1600000x1_S1600000_n_0_0_1 (broadcastInDim S100000 ![] bcast_S_S100000 (constant S_ .f32 0x00000000#32)) (broadcastInDim S1600000x1 ![0] bcast_S1600000_S1600000x1_0 (shapeCast _ (extractStridedSlice S1x1600000 ![1, 0] ei slices_S2x1600000_S1x1600000_1_0) shapeCasts_S1x1600000_S1600000)) (broadcastInDim S1600000 ![] bcast_S_S1600000 (constant S_ .f32 0x3F800000#32)))))))⟩] concatenates_S100000x64_S100000x64_S100000x128_d1 : FVec Ideal S100000x128 .f32)
      = nodeFeats x ei (reluRows (m := 1600000) (k := 128) (n := 64) (edgeFeats x ei) Wm (biasRow bm)) := rfl

/-- The reference's composed result term is the layer's function of the arguments. -/
theorem result_eq :
    (maximumf (addf (Host.dotGeneral dot_S100000x128_S128x64_S100000x64_1_0_0_1_n_n none (concatenate S100000x128 1 [⟨S100000x64, x⟩, ⟨S100000x64, (Host.divf (Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 (shapeCast _ (extractStridedSlice S1x1600000 ![1, 0] ei slices_S2x1600000_S1x1600000_1_0) shapeCasts_S1x1600000_S1600000)) (maximumf (addf (Host.dotGeneral dot_S1600000x128_S128x64_S1600000x64_1_0_0_1_n_n none (concatenate S1600000x128 1 [⟨S1600000x64, (Host.gather gather_S100000x64_S1600000x1_S1600000x64_1_0_n_n_0_1_164 x (broadcastInDim S1600000x1 ![0] bcast_S1600000_S1600000x1_0 (select (cmpi .slt (shapeCast _ (extractStridedSlice S1x1600000 ![0, 0] ei slices_S2x1600000_S1x1600000_0_0) shapeCasts_S1x1600000_S1600000) (broadcastInDim S1600000 ![] bcast_S_S1600000 (constantI S_ 32 0#32))) (addi (shapeCast _ (extractStridedSlice S1x1600000 ![0, 0] ei slices_S2x1600000_S1x1600000_0_0) shapeCasts_S1x1600000_S1600000) (broadcastInDim S1600000 ![] bcast_S_S1600000 (constantI S_ 32 100000#32))) (shapeCast _ (extractStridedSlice S1x1600000 ![0, 0] ei slices_S2x1600000_S1x1600000_0_0) shapeCasts_S1x1600000_S1600000))))⟩, ⟨S1600000x64, (Host.gather gather_S100000x64_S1600000x1_S1600000x64_1_0_n_n_0_1_164 x (broadcastInDim S1600000x1 ![0] bcast_S1600000_S1600000x1_0 (select (cmpi .slt (shapeCast _ (extractStridedSlice S1x1600000 ![1, 0] ei slices_S2x1600000_S1x1600000_1_0) shapeCasts_S1x1600000_S1600000) (broadcastInDim S1600000 ![] bcast_S_S1600000 (constantI S_ 32 0#32))) (addi (shapeCast _ (extractStridedSlice S1x1600000 ![1, 0] ei slices_S2x1600000_S1x1600000_1_0) shapeCasts_S1x1600000_S1600000) (broadcastInDim S1600000 ![] bcast_S_S1600000 (constantI S_ 32 100000#32))) (shapeCast _ (extractStridedSlice S1x1600000 ![1, 0] ei slices_S2x1600000_S1x1600000_1_0) shapeCasts_S1x1600000_S1600000))))⟩] concatenates_S1600000x64_S1600000x64_S1600000x128_d1) Wm) (broadcastInDim S1600000x64 ![0, 1] bcast_S1x64_S1600000x64_0_1 (broadcastInDim S1x64 ![1] bcast_S64_S1x64_1 bm))) (broadcastInDim S1600000x64 ![] bcast_S_S1600000x64 (constant S_ .f32 0x00000000#32)))) (broadcastInDim S100000x64 ![0, 1] bcast_S100000x1_S100000x64_0_1 (broadcastInDim S100000x1 ![0] bcast_S100000_S100000x1_0 (maximumf (broadcastInDim S100000 ![] bcast_S_S100000 (id (constant S_ .f32 0x3F800000#32))) (Host.scatterAdd scatter_S100000_S1600000x1_S1600000_n_0_0_1 (broadcastInDim S100000 ![] bcast_S_S100000 (constant S_ .f32 0x00000000#32)) (broadcastInDim S1600000x1 ![0] bcast_S1600000_S1600000x1_0 (shapeCast _ (extractStridedSlice S1x1600000 ![1, 0] ei slices_S2x1600000_S1x1600000_1_0) shapeCasts_S1x1600000_S1600000)) (broadcastInDim S1600000 ![] bcast_S_S1600000 (constant S_ .f32 0x3F800000#32)))))))⟩] concatenates_S100000x64_S100000x64_S100000x128_d1) Wu) (broadcastInDim S100000x64 ![0, 1] bcast_S1x64_S100000x64_0_1 (broadcastInDim S1x64 ![1] bcast_S64_S1x64_1 bu))) (broadcastInDim S100000x64 ![] bcast_S_S100000x64 (constant S_ .f32 0x00000000#32)) : FVec Ideal S100000x64 .f32)
      = layerOut x ei Wm bm Wu bu := by
  rw [messages_eq x ei Wm bm, node_feats_eq x ei Wm bm]
  exact host_reluRows (m := 100000) (k := 128) (n := 64)
    (nodeFeats x ei (reluRows (m := 1600000) (k := 128) (n := 64) (edgeFeats x ei) Wm (biasRow bm))) Wu bu _ _ _ _

end Cert.ReferenceIdeal.RefValue

end
-- ==== Proof.lean ====
/-
  A message-passing layer over a graph of 100000 nodes and 1600000 edges: the kernel program against its reference,
  on the extended reals.

  Both programs gather, for every edge, the feature rows of its two endpoints (`edgeFeats`), turn them into messages
  by a dense layer clamped below at zero, average the messages arriving at each node (a scatter-add of the messages
  and of ones by target node, the count clamped below at one, a division), lay each node's own row beside its mean
  message (`nodeFeats`), and apply a second clamped dense layer. The host operations around the two dense layers are
  the same in both programs. The kernel program computes each dense layer in a pipelined region over blocks of 20000
  rows — a product into a zero accumulator, the bias row repeated down the block, a maximum with zero —; the reference
  computes it on whole arrays — the host's product, the bias through two broadcasts, a maximum with a broadcast zero.
  Both are the same function `reluRows` of the features, the weights and the bias laid out as a row, entry by entry a
  sum of products plus the bias clamped at zero, and a row of the result depends on the same row of the features only;
  so the blocks the kernel program writes back tile the whole-array result, and the two programs end at `layerOut` of
  the arguments. No law beyond the definitions is used, so the inputs' finiteness is not needed for the values.

  The modules: LibReluRows (the clamped dense layer, its block form, its host form, its dependence on rows),
  HostChain (the shared host operations as functions, and `layerOut`), MessageRegion and UpdateRegion (each region's
  output array as `reluRows` of what it finds on entry), KernelRun (the kernel program's run with its result named),
  KernelValue (the boundary contents read back to the arguments), RefValue (the reference's composed term).
  Nothing was rewritten when the kernel program was printed for exact values, so that conjunct is trivial.
-/
import proofs.«144825_j7971459301457_2_alg».proof.Defs
import proofs.«144825_j7971459301457_2_alg».proof.Proof.Gen.Kernel
import proofs.«144825_j7971459301457_2_alg».proof.Proof.Gen.Kernel.Skeleton
import proofs.«144825_j7971459301457_2_alg».proof.Proof.Gen.Kernel.Launch
import proofs.«144825_j7971459301457_2_alg».proof.Proof.Gen.Kernel.Points
import proofs.«144825_j7971459301457_2_alg».proof.Proof.Gen.Kernel.Frame
import proofs.«144825_j7971459301457_2_alg».proof.Proof.Gen.KernelIdeal
import proofs.«144825_j7971459301457_2_alg».proof.Proof.Gen.KernelIdeal.Skeleton
import proofs.«144825_j7971459301457_2_alg».proof.Proof.Gen.KernelIdeal.Launch
import proofs.«144825_j7971459301457_2_alg».proof.Proof.Gen.KernelIdeal.Points
import proofs.«144825_j7971459301457_2_alg».proof.Proof.Gen.KernelIdeal.Frame
import proofs.«144825_j7971459301457_2_alg».proof.Proof.Gen.ReferenceIdeal
import proofs.«144825_j7971459301457_2_alg».proof.Proof.Gen.Pre_finite_inputs
import proofs.«144825_j7971459301457_2_alg».proof.Proof.Gen.ReferenceIdeal.Run
import proofs.«144825_j7971459301457_2_alg».proof.Proof.KernelRun
import proofs.«144825_j7971459301457_2_alg».proof.Proof.KernelValue
import proofs.«144825_j7971459301457_2_alg».proof.Proof.RefValue
import Idealize.ShloMosaic.Adequacy
import Idealize.ShloMosaic.Init

noncomputable section

namespace Cert.Proof

open Idealize.ShloMosaic Idealize.SL.Sem

/-- The word-level kernel program runs and leaves its arguments as launched. -/
theorem frame_kernel : Cert.frame_Kernel := fun m ρ _ => Cert.Kernel.Gen.frame m ρ

/-- So does the kernel program read at exact values. -/
theorem frame_kernelIdeal : Cert.frame_KernelIdeal := fun m ρ _ => Cert.KernelIdeal.Gen.frame m ρ

/-- The reference is a line of host operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing was rewritten when the kernel program was printed for exact values. -/
theorem preserves : Cert.preserves_Kernel_KernelIdeal := trivial

/-- From memories that agree on the arguments both programs end at `layerOut` of the arguments. -/
theorem algebraic : Cert.algebraic_KernelIdeal_ReferenceIdeal := by
  intro m ρ m' ρ' _ hagree
  refine ⟨fun c => Cert.KernelIdeal.HostChain.layerOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.KernelValue.result_eq m ρ c), (h c).2⟩)
      (Cert.KernelIdeal.RunValue.run (F := Ideal) m ρ)
  · refine (θ_run Cert.ReferenceIdeal.defs _ _).mono (fun _ h c => ⟨(h c).1.trans ?_, (h c).2⟩)
      (Cert.ReferenceIdeal.Value.run (F := Ideal) m' ρ')
    rw [(hagree c).1, (hagree c).2.1, (hagree c).2.2.1, (hagree c).2.2.2.1, (hagree c).2.2.2.2.1, (hagree c).2.2.2.2.2]
    exact Cert.ReferenceIdeal.RefValue.result_eq _ _ _ _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
